-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x1024x64 : Shape := ⟨4, ![2, 16, 1024, 64]⟩
abbrev S2x16x1024x1024 : Shape := ⟨4, ![2, 16, 1024, 1024]⟩
abbrev S2x1024x1024 : Shape := ⟨3, ![2, 1024, 1024]⟩
abbrev S_ : Shape := ⟨0, ![]⟩

class Facts : Prop where
  bcast_S_S2x16x1024x64 : S_.BroadcastsInDim S2x16x1024x64 (![] : Fin 0 → Fin S2x16x1024x64.rank)
  reducesTo_S2x16x1024x64_S_d0_1_2_3 : S2x16x1024x64.ReducesTo [0, 1, 2, 3] S_
  h_S_ : 0 < S_.numel
  bcast_S_S2x16x1024x1024 : S_.BroadcastsInDim S2x16x1024x1024 (![] : Fin 0 → Fin S2x16x1024x1024.rank)
  reducesTo_S2x16x1024x1024_S_d0_1_2_3 : S2x16x1024x1024.ReducesTo [0, 1, 2, 3] S_
  bcast_S_S2x1024x1024 : S_.BroadcastsInDim S2x1024x1024 (![] : Fin 0 → Fin S2x1024x1024.rank)
  reducesTo_S2x1024x1024_S_d0_1_2 : S2x1024x1024.ReducesTo [0, 1, 2] S_

variable [Facts]

def fn_part1 {F : FTy → Type} [FloatOps F] (main_arg6 : FVec F S2x16x1024x1024 .f32) (main_arg7 : FVec F S2x1024x1024 .f32) (main_v13 : IVec S_ 1) (main_v16 : IVec S2x16x1024x1024 1) : IVec S_ 1 :=
  let main_c_5 : IVec S_ 1 := constantI S_ 1 1#1
  let main_v17 : IVec S_ 1 := (fun x v => Host.reduce IntOp.andi x v reducesTo_S2x16x1024x1024_S_d0_1_2_3 h_S_) main_v16 main_c_5
  let main_v18 : IVec S_ 1 := andi main_v13 main_v17
  let main_v19 : FVec F S2x16x1024x1024 .f32 := Host.absf main_arg6
  let main_cst_6 : FVec F S_ .f32 := constant S_ .f32 0x7F800000#32
  let main_v20 : FVec F S2x16x1024x1024 .f32 := broadcastInDim S2x16x1024x1024 ![] bcast_S_S2x16x1024x1024 main_cst_6
  let main_v21 : IVec S2x16x1024x1024 1 := cmpf .olt main_v19 main_v20
  let main_c_7 : IVec S_ 1 := constantI S_ 1 1#1
  let main_v22 : IVec S_ 1 := (fun x v => Host.reduce IntOp.andi x v reducesTo_S2x16x1024x1024_S_d0_1_2_3 h_S_) main_v21 main_c_7
  let main_v23 : IVec S_ 1 := andi main_v18 main_v22
  let main_v24 : FVec F S2x1024x1024 .f32 := Host.absf main_arg7
  let main_cst_8 : FVec F S_ .f32 := constant S_ .f32 0x7F800000#32
  let main_v25 : FVec F S2x1024x1024 .f32 := broadcastInDim S2x1024x1024 ![] bcast_S_S2x1024x1024 main_cst_8
  let main_v26 : IVec S2x1024x1024 1 := cmpf .olt main_v24 main_v25
  let main_c_9 : IVec S_ 1 := constantI S_ 1 1#1
  let main_v27 : IVec S_ 1 := (fun x v => Host.reduce IntOp.andi x v reducesTo_S2x1024x1024_S_d0_1_2 h_S_) main_v26 main_c_9
  let main_v28 : IVec S_ 1 := andi main_v23 main_v27
  main_v28

def fn {F : FTy → Type} [FloatOps F] (main_arg0 : FVec F S2x16x1024x64 .f32) (main_arg1 : FVec F S2x16x1024x64 .f32) (main_arg2 : FVec F S2x16x1024x64 .f32) (main_arg3 : IVec S2x16x1024x1024 1) (main_arg4 : IVec S2x16x1024x1024 1) (main_arg5 : FVec F S2x16x1024x1024 .f32) (main_arg6 : FVec F S2x16x1024x1024 .f32) (main_arg7 : FVec F S2x1024x1024 .f32) : IVec S_ 1 :=
  let main_v0 : FVec F S2x16x1024x64 .f32 := Host.absf main_arg0
  let main_cst : FVec F S_ .f32 := constant S_ .f32 0x7F800000#32
  let main_v1 : FVec F S2x16x1024x64 .f32 := broadcastInDim S2x16x1024x64 ![] bcast_S_S2x16x1024x64 main_cst
  let main_v2 : IVec S2x16x1024x64 1 := cmpf .olt main_v0 main_v1
  let main_c : IVec S_ 1 := constantI S_ 1 1#1
  let main_v3 : IVec S_ 1 := (fun x v => Host.reduce IntOp.andi x v reducesTo_S2x16x1024x64_S_d0_1_2_3 h_S_) main_v2 main_c
  let main_v4 : FVec F S2x16x1024x64 .f32 := Host.absf main_arg1
  let main_cst_0 : FVec F S_ .f32 := constant S_ .f32 0x7F800000#32
  let main_v5 : FVec F S2x16x1024x64 .f32 := broadcastInDim S2x16x1024x64 ![] bcast_S_S2x16x1024x64 main_cst_0
  let main_v6 : IVec S2x16x1024x64 1 := cmpf .olt main_v4 main_v5
  let main_c_1 : IVec S_ 1 := constantI S_ 1 1#1
  let main_v7 : IVec S_ 1 := (fun x v => Host.reduce IntOp.andi x v reducesTo_S2x16x1024x64_S_d0_1_2_3 h_S_) main_v6 main_c_1
  let main_v8 : IVec S_ 1 := andi main_v3 main_v7
  let main_v9 : FVec F S2x16x1024x64 .f32 := Host.absf main_arg2
  let main_cst_2 : FVec F S_ .f32 := constant S_ .f32 0x7F800000#32
  let main_v10 : FVec F S2x16x1024x64 .f32 := broadcastInDim S2x16x1024x64 ![] bcast_S_S2x16x1024x64 main_cst_2
  let main_v11 : IVec S2x16x1024x64 1 := cmpf .olt main_v9 main_v10
  let main_c_3 : IVec S_ 1 := constantI S_ 1 1#1
  let main_v12 : IVec S_ 1 := (fun x v => Host.reduce IntOp.andi x v reducesTo_S2x16x1024x64_S_d0_1_2_3 h_S_) main_v11 main_c_3
  let main_v13 : IVec S_ 1 := andi main_v8 main_v12
  let main_v14 : FVec F S2x16x1024x1024 .f32 := Host.absf main_arg5
  let main_cst_4 : FVec F S_ .f32 := constant S_ .f32 0x7F800000#32
  let main_v15 : FVec F S2x16x1024x1024 .f32 := broadcastInDim S2x16x1024x1024 ![] bcast_S_S2x16x1024x1024 main_cst_4
  let main_v16 : IVec S2x16x1024x1024 1 := cmpf .olt main_v14 main_v15
  fn_part1 (F := F) main_arg6 main_arg7 main_v13 main_v16
-- ==== Kernel.lean ====
abbrev S2x16x1024x64 : Shape := ⟨4, ![2, 16, 1024, 64]⟩
abbrev S2x16x1024x1024 : Shape := ⟨4, ![2, 16, 1024, 1024]⟩
abbrev S2x1024x1024 : Shape := ⟨3, ![2, 1024, 1024]⟩
abbrev S1x1x512x64 : Shape := ⟨4, ![1, 1, 512, 64]⟩
abbrev S1x1x1024x64 : Shape := ⟨4, ![1, 1, 1024, 64]⟩
abbrev S1x1x512x1024 : Shape := ⟨4, ![1, 1, 512, 1024]⟩
abbrev S512x64 : Shape := ⟨2, ![512, 64]⟩
abbrev S1024x64 : Shape := ⟨2, ![1024, 64]⟩
abbrev S64x1024 : Shape := ⟨2, ![64, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S2x16x1024x64, .f32⟩
  | .hbm, ⟨1, _⟩ => ⟨S2x16x1024x64, .f32⟩
  | .hbm, ⟨2, _⟩ => ⟨S2x16x1024x64, .f32⟩
  | .hbm, ⟨3, _⟩ => ⟨S2x16x1024x1024, .i1⟩
  | .hbm, ⟨4, _⟩ => ⟨S2x16x1024x1024, .i1⟩
  | .hbm, ⟨5, _⟩ => ⟨S2x16x1024x1024, .f32⟩
  | .hbm, ⟨6, _⟩ => ⟨S2x16x1024x1024, .f32⟩
  | .hbm, ⟨7, _⟩ => ⟨S2x1024x1024, .f32⟩
  | .hbm, ⟨8, _⟩ => ⟨S2x16x1024x1024, .i32⟩
  | .hbm, ⟨9, _⟩ => ⟨S2x16x1024x64, .f32⟩
  | .hbm, ⟨10, _⟩ => ⟨S2x16x1024x1024, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x512x1024, .f32⟩
  | .local _ .vmem, ⟨9, _⟩ => ⟨S1x1x512x1024, .f32⟩
  | .local _ .vmem, ⟨10, _⟩ => ⟨S1x1x512x1024, .i32⟩
  | .local _ .vmem, ⟨11, _⟩ => ⟨S1x1x512x1024, .i32⟩
  | .local _ .vmem, ⟨12, _⟩ => ⟨S1x1x512x64, .f32⟩
  | .local _ .vmem, ⟨13, _⟩ => ⟨S1x1x512x64, .f32⟩
  | .local _ .vmem, ⟨14, _⟩ => ⟨S1x1x512x1024, .f32⟩
  | .local _ .vmem, ⟨15, _⟩ => ⟨S1x1x512x1024, .f32⟩
  | _, _ => ⟨S2x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  transposes_S1024x64_p1_0_S64x1024 : S1024x64.Transposes [1, 0] S64x1024
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S512x1024_S1x1x512x1024 : S512x1024.ShapeCasts S1x1x512x1024
  shapeCasts_S512x64_S1x1x512x64 : S512x64.ShapeCasts S1x1x512x64
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x1024x64.size a
  hwx0_0 : ∀ i : grid0.Coords, EltTy.bits .f32 = 32 ∨ (Rect.block (s := S2x16x1024x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S2x16x1024x64.size a
  hwx0_1 : ∀ i : grid0.Coords, EltTy.bits .f32 = 32 ∨ (Rect.block (s := S2x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S2x16x1024x64.size a
  hwx0_2 : ∀ i : grid0.Coords, EltTy.bits .f32 = 32 ∨ (Rect.block (s := S2x16x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x1024.size a ≤ S2x16x1024x1024.size a
  hwx0_3 : ∀ i : grid0.Coords, EltTy.bits .f32 = 32 ∨ (Rect.block (s := S2x16x1024x1024) S1x1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x1024.size a ≤ S2x16x1024x1024.size a
  hwx0_4 : ∀ i : grid0.Coords, EltTy.bits .f32 = 32 ∨ (Rect.block (s := S2x16x1024x1024) S1x1x512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x1024.size a ≤ S2x16x1024x1024.size a
  hwx0_5 : ∀ i : grid0.Coords, EltTy.bits .i32 = 32 ∨ (Rect.block (s := S2x16x1024x1024) S1x1x512x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x64.size a ≤ S2x16x1024x64.size a
  hwx0_6 : ∀ i : grid0.Coords, EltTy.bits .f32 = 32 ∨ (Rect.block (s := S2x16x1024x64) S1x1x512x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x512x1024.size a ≤ S2x16x1024x1024.size a
  hwx0_7 : ∀ i : grid0.Coords, EltTy.bits .f32 = 32 ∨ (Rect.block (s := S2x16x1024x1024) S1x1x512x1024.size (cc0_transform_7 i) (hinb0_7 i)).WholeWords (EltTy.packing .f32)

variable [Facts₀]

def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x1x512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S1x1x512x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S1x1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x16x1024x64 : Shape := ⟨4, ![2, 16, 1024, 64]⟩
abbrev S2x16x1024x1024 : Shape := ⟨4, ![2, 16, 1024, 1024]⟩
abbrev S2x1024x1024 : Shape := ⟨3, ![2, 1024, 1024]⟩
abbrev S_ : Shape := ⟨0, ![]⟩
abbrev S2x16x1024 : Shape := ⟨3, ![2, 16, 1024]⟩
abbrev S2x16x1024x1 : Shape := ⟨4, ![2, 16, 1024, 1]⟩

abbrev nBuf : Space → Nat
  | .hbm => 34
  | .vmem => 0
  | .smem => 0
  | _ => 0

abbrev bufTy : (tb : Table) → Fin (tcTables nBuf tb) → BufTy
  | .hbm, ⟨0, _⟩ => ⟨S2x16x1024x64, .f32⟩
  | .hbm, ⟨1, _⟩ => ⟨S2x16x1024x64, .f32⟩
  | .hbm, ⟨2, _⟩ => ⟨S2x16x1024x64, .f32⟩
  | .hbm, ⟨3, _⟩ => ⟨S2x16x1024x1024, .i1⟩
  | .hbm, ⟨4, _⟩ => ⟨S2x16x1024x1024, .i1⟩
  | .hbm, ⟨5, _⟩ => ⟨S2x16x1024x1024, .f32⟩
  | .hbm, ⟨6, _⟩ => ⟨S2x16x1024x1024, .f32⟩
  | .hbm, ⟨7, _⟩ => ⟨S2x1024x1024, .f32⟩
  | .hbm, ⟨8, _⟩ => ⟨S2x16x1024x1024, .f32⟩
  | .hbm, ⟨9, _⟩ => ⟨S_, .f32⟩
  | .hbm, ⟨10, _⟩ => ⟨S_, .f32⟩
  | .hbm, ⟨11, _⟩ => ⟨S2x16x1024x1024, .f32⟩
  | .hbm, ⟨12, _⟩ => ⟨S2x16x1024x1024, .f32⟩
  | .hbm, ⟨13, _⟩ => ⟨S2x16x1024x1024, .f32⟩
  | .hbm, ⟨14, _⟩ => ⟨S2x16x1024x1024, .f32⟩
  | .hbm, ⟨15, _⟩ => ⟨S_, .f32⟩
  | .hbm, ⟨16, _⟩ => ⟨S_, .f32⟩
  | .hbm, ⟨17, _⟩ => ⟨S2x16x1024x1024, .f32⟩
  | .hbm, ⟨18, _⟩ => ⟨S2x16x1024x1024, .f32⟩
  | .hbm, ⟨19, _⟩ => ⟨S_, .f32⟩
  | .hbm, ⟨20, _⟩ => ⟨S2x16x1024, .f32⟩
  | .hbm, ⟨21, _⟩ => ⟨S_, .f32⟩
  | .hbm, ⟨22, _⟩ => ⟨S2x16x1024, .f32⟩
  | .hbm, ⟨23, _⟩ => ⟨S2x16x1024, .f32⟩
  | .hbm, ⟨24, _⟩ => ⟨S2x16x1024x1, .f32⟩
  | .hbm, ⟨25, _⟩ => ⟨S2x16x1024x1024, .f32⟩
  | .hbm, ⟨26, _⟩ => ⟨S2x16x1024x1024, .f32⟩
  | .hbm, ⟨27, _⟩ => ⟨S2x16x1024x1024, .f32⟩
  | .hbm, ⟨28, _⟩ => ⟨S_, .f32⟩
  | .hbm, ⟨29, _⟩ => ⟨S2x16x1024, .f32⟩
  | .hbm, ⟨30, _⟩ => ⟨S2x16x1024x1, .f32⟩
  | .hbm, ⟨31, _⟩ => ⟨S2x16x1024x1024, .f32⟩
  | .hbm, ⟨32, _⟩ => ⟨S2x16x1024x1024, .f32⟩
  | .hbm, ⟨33, _⟩ => ⟨S2x16x1024x64, .f32⟩
  | _, _ => ⟨S2x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S_S2x16x1024x1024 : S_.BroadcastsInDim S2x16x1024x1024 (![] : Fin 0 → Fin S2x16x1024x1024.rank)
  reducesTo_S2x16x1024x1024_S2x16x1024_d3 : S2x16x1024x1024.ReducesTo [3] S2x16x1024
  h_S_ : 0 < S_.numel
  bcast_S_S2x16x1024 : S_.BroadcastsInDim S2x16x1024 (![] : Fin 0 → Fin S2x16x1024.rank)
  bcast_S2x16x1024_S2x16x1024x1_0_1_2 : S2x16x1024.BroadcastsInDim S2x16x1024x1 (![0, 1, 2] : Fin 3 → Fin S2x16x1024x1.rank)
  bcast_S2x16x1024x1_S2x16x1024x1024_0_1_2_3 : S2x16x1024x1.BroadcastsInDim S2x16x1024x1024 (![0, 1, 2, 3] : Fin 4 → Fin S2x16x1024x1024.rank)
  dot_S2x16x1024x64_S2x16x1024x64_S2x16x1024x1024_3_3_2_2_01_01_wf : DotDims.WF S2x16x1024x64 S2x16x1024x64 S2x16x1024x1024 [3] [3] [2] [2] [0, 1] [0, 1]
  dot_S2x16x1024x1024_S2x16x1024x64_S2x16x1024x64_3_2_2_3_01_01_wf : DotDims.WF S2x16x1024x1024 S2x16x1024x64 S2x16x1024x64 [3] [2] [2] [3] [0, 1] [0, 1]

variable [Facts₀]

def dot_S2x16x1024x64_S2x16x1024x64_S2x16x1024x1024_3_3_2_2_01_01 : DotDims S2x16x1024x64 S2x16x1024x64 S2x16x1024x1024 where
  lhsContracting := [3]
  rhsContracting := [3]
  lhsNonContracting := [2]
  rhsNonContracting := [2]
  lhsBatch := [0, 1]
  rhsBatch := [0, 1]
  wf := dot_S2x16x1024x64_S2x16x1024x64_S2x16x1024x1024_3_3_2_2_01_01_wf
def dot_S2x16x1024x1024_S2x16x1024x64_S2x16x1024x64_3_2_2_3_01_01 : DotDims S2x16x1024x1024 S2x16x1024x64 S2x16x1024x64 where
  lhsContracting := [3]
  rhsContracting := [2]
  lhsNonContracting := [2]
  rhsNonContracting := [3]
  lhsBatch := [0, 1]
  rhsBatch := [0, 1]
  wf := dot_S2x16x1024x1024_S2x16x1024x64_S2x16x1024x64_3_2_2_3_01_01_wf

class Facts : Prop extends Facts₀ where

variable [Facts]
-- ==== Proof.AttnSpec.lean ====
/-
  Masked softmax attention on the extended reals, stated row by row, with no program in sight.

  For a batch b, a head h and a query row q, the SCORE of key column k is
      s(k) = (sum over d of Q(b,h,q,d) * K(b,h,k,d)) * (1/8) + (A(b,h,q,k) + B(b,h,q,k)),
  replaced by the fill value -1e9 where the condition bit C(b,h,q,k) is set. The row's WEIGHTS are
      w(k) = exp(s(k) - max_k' s(k')) / (sum over k' of exp(s(k') - max_k' s(k'))),
  the maximum taken as a fold of max from -infinity, and the CONTEXT row is
      ctx(d) = sum over k of w(k) * V(b,h,k,d).
  Both programs compute exactly these two arrays; they differ in three spellings that this module settles once:
  dividing by sqrt 64 is multiplying by 1/8 (on every extended real, the infinities included); adding the two biases
  one after the other is adding their sum (addition on the extended reals is associative); and a fold of max
  already dominates its starting value, so taking max with that starting value again changes nothing.
  A condition bit widened to 32 bits and compared against zero gives the bit back.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Indices of a [2, 16, 1024, 64] array (queries, keys, values, context). -/
abbrev I64 : Type := (⟨4, ![2, 16, 1024, 64]⟩ : Shape).Idx
/-- Indices of a [2, 16, 1024, 1024] array (biases, condition bits, weights). -/
abbrev I1024 : Type := (⟨4, ![2, 16, 1024, 1024]⟩ : Shape).Idx

/-! ## The float words the programs spell -/

/-- The word of `64.0` denotes the real 64. -/
theorem ofBits_64 : Ideal.ofBits .f32 0x42800000#32 = ((64 : ℝ) : EReal) := by
  simp [Ideal.ofBits, Ideal.ieee, -EReal.coe_mul]; norm_num

/-- The word of `0.125` denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Real.sqrt 64 = 8 := by
  rw [show (64 : ℝ) = 8 ^ 2 by norm_num]
  exact Real.sqrt_sq (by norm_num)

/-- Dividing by the square root of `64.0` is multiplying by `0.125`, for every extended real. -/
theorem div_sqrt_64 (x : EReal) :
    Ideal.div x (Ideal.sqrt (Ideal.ofBits .f32 0x42800000#32)) = x * Ideal.ofBits .f32 0x3E000000#32 := by
  rw [ofBits_64, ofBits_eighth, Ideal.sqrt_coe, if_neg (by norm_num), sqrt_64]
  exact Ideal.div_coe (by norm_num) x

/-! ## The two small laws -/

/-- A fold of max dominates the value it starts from, so max with that value again is the fold. -/
theorem max_fold_self {ι : Type} (s : Finset ι) (init : EReal) (f : ι → EReal) :
    max init (s.fold max init f) = s.fold max init f :=
  max_eq_right ((Finset.le_fold_max init).mpr (Or.inl le_rfl))

/-- A bit widened to 32 bits is nonzero exactly when it is set. -/
theorem ne_zero_setWidth (b : BitVec 1) : IntOp.cmpi .ne (b.setWidth 32) 0#32 = b := by
  revert b; decide

/-! ## The specification -/

/-- The score of key `k` for the query row `(b, h, q)`: the scaled product plus the two biases, or the fill value
    where the condition bit is set. -/
def score (Q K : I64 → EReal) (A B : I1024 → EReal) (C : I1024 → BitVec 1) (b : Fin 2) (h : Fin 16) (q k : Fin 1024) : EReal :=
  Scalar.select (C (ix4 b h q k)) (Ideal.ofBits .f32 0xCE6E6B28#32)
    ((∑ d : Fin 64, Q (ix4 b h q d) * K (ix4 b h k d)) * Ideal.ofBits .f32 0x3E000000#32
      + (A (ix4 b h q k) + B (ix4 b h q k)))

/-- A row's maximum, as the fold of max from -infinity over its 1024 entries. -/
def rowMax (s : Fin 1024 → EReal) : EReal :=
  (Finset.univ : Finset (Fin 1024)).fold max (Ideal.ofBits .f32 0xFF800000#32) s

/-- The exponential of an entry's distance below the row's maximum. -/
def expRow (s : Fin 1024 → EReal) (k : Fin 1024) : EReal := Ideal.exp (s k - rowMax s)

/-- The softmax weight of entry `k` of a row. -/
def weight (s : Fin 1024 → EReal) (k : Fin 1024) : EReal := Ideal.div (expRow s k) (∑ k' : Fin 1024, expRow s k')

/-- The attention weights, index by index. -/
def attn (Q K : I64 → EReal) (A B : I1024 → EReal) (C : I1024 → BitVec 1) : I1024 → EReal :=
  fun i => weight (score Q K A B C (i 0) (i 1) (i 2)) (i 3)

/-- The context, index by index: each query row's weights against the values' column. -/
def ctx (Q K V : I64 → EReal) (A B : I1024 → EReal) (C : I1024 → BitVec 1) : I64 → EReal :=
  fun i => ∑ k : Fin 1024, weight (score Q K A B C (i 0) (i 1) (i 2)) k * V (ix4 (i 0) (i 1) k (i 3))

/-- The score as the reference spells it: the product divided by the square root of `64.0`, the biases added one
    after the other. -/
theorem score_ref (Q K : I64 → EReal) (A B : I1024 → EReal) (C : I1024 → BitVec 1) (b : Fin 2) (h : Fin 16) (q k : Fin 1024) :
    Scalar.select (C (ix4 b h q k)) (Ideal.ofBits .f32 0xCE6E6B28#32)
      (Ideal.div (∑ d : Fin 64, Q (ix4 b h q d) * K (ix4 b h k d)) (Ideal.sqrt (Ideal.ofBits .f32 0x42800000#32))
        + A (ix4 b h q k) + B (ix4 b h q k))
      = score Q K A B C b h q k := by
  unfold score
  rw [div_sqrt_64, add_assoc]

end Cert.Attn

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.LibKeepdimsLayout.lean ====
/-
  Layout operations on a column that keeps its reduced axis as a unit axis, read at an index given by coordinates,
  for any extents: a vector of length a viewed as an a × 1 column, and an a × 1 column repeated over b columns.
  (The transpose of an a × 1 column to a 1 × a row and a 1 × b row repeated over a rows are the library's
  `transpose_ix2_apply` and `broadcastTo_1b_ab_apply`.)
-/
import Idealize.ShloMosaic.Lib.ValueIdx
import Idealize.ShloMosaic.Lib.ValueLayout
import Idealize.ShloMosaic.Lib.Pipeline.Value

namespace Cert.KeepdimsLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsLayout
-- ==== Proof.LibTwoUnitCast.lean ====
/-
  Two leading unit axes dropped or added by a shape cast, read at an index given by coordinates, for any extents and
  any element type: a [1, 1, a, b] block viewed as its a × b matrix, and an a × b matrix viewed as a [1, 1, a, b]
  block. Both keep the row-major position, which is i * b + j on either side.
-/
import Idealize.ShloMosaic.Lib.ValueIdx
import Idealize.ShloMosaic.Lib.Pipeline.Value

namespace Cert.Lib.TwoUnitCast

open Idealize.ShloMosaic Idealize.ShloMosaic.ValueIdx

variable {α : Type}

/-- A `[1, 1, a, b]` array cast to `[a, b]` reads, at `(i, j)`, the operand at `(0, 0, i, j)`. -/
theorem dropUnits_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`, whatever the two unit
    coordinates. -/
theorem addUnits_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- Every index of a `[1, 1, a, b]` block is `(0, 0, i, j)` for its last two coordinates. -/
theorem eq_ix4_units {a b : ℕ} (y : (⟨4, ![1, 1, a, b]⟩ : Shape).Idx) :
    y = ix4 (0 : Fin 1) (0 : Fin 1) (y 2) (y 3) :=
  funext fun c => Fin.ext (by
    match c with
    | ⟨0, _⟩ => have h0 : (y 0).val < 1 := (y 0).isLt; show (y 0).val = 0; omega
    | ⟨1, _⟩ => have h1 : (y 1).val < 1 := (y 1).isLt; show (y 1).val = 0; omega
    | ⟨2, _⟩ => rfl
    | ⟨3, _⟩ => rfl)

end Cert.Lib.TwoUnitCast
-- ==== Proof.KernelBlock.lean ====
/-
  One grid point of the kernel, read at an index.

  The body loads a [512, 64] block of queries P0, the [1024, 64] keys P1 and values PV of one (batch, head), and
  [512, 1024] blocks of the two biases P2, P3 and of the 32-bit condition words P4. Row p of the block and key column k:
  the matrix unit's product of the query block with the transposed keys, from a zero accumulator, is the sum over d of
  P0(p, d) * P1(k, d); scaled by 0.125, plus the two biases' sum, or the fill value where the condition word is not
  zero: that is the block's score `bscore p k`. The lane maximum of row p from -infinity is the fold of max over that
  row of scores; the exponential of the distance below it is the row's `expRow`; the lane sum from zero is the row's
  denominator, and the quotient the specification's `weight`. The second product, again from a zero accumulator, sums
  over k the weight of (p, k) times PV(k, d).
-/
import proofs.«112944_j9732395892963_2_alg».proof.Proof.Gen.KernelIdeal.Value
import proofs.«112944_j9732395892963_2_alg».proof.Proof.AttnSpec
import proofs.«112944_j9732395892963_2_alg».proof.Proof.LibPlainProduct
import proofs.«112944_j9732395892963_2_alg».proof.Proof.LibKeepdimsLayout
import proofs.«112944_j9732395892963_2_alg».proof.Proof.LibTwoUnitCast
import Idealize.ShloMosaic.Lib.ValueLayout
import Idealize.ShloMosaic.PureOps.Ideal.Laws

noncomputable section

namespace Cert.Attn.Block

open Cert.KernelIdeal Cert.KernelIdeal.Gen Cert.KernelIdeal.Value
open Idealize.ShloMosaic Idealize.ShloMosaic.TcCoe Idealize.ShloMosaic.ValueIdx
open Cert.Lib.TwoUnitCast Cert.Lib.PlainProduct Cert.KeepdimsLayout

variable (P0 : Vec Ideal S1x1x512x64 .f32) (P1 PV : Vec Ideal S1x1x1024x64 .f32)
  (P2 P3 : Vec Ideal S1x1x512x1024 .f32) (P4 : Vec Ideal S1x1x512x1024 .i32)

/-- The score of key column `k` for row `p` of the block. -/
def bscore (p : Fin 512) (k : Fin 1024) : EReal :=
  Scalar.select (IntOp.cmpi .ne (P4 (ix4 (0 : Fin 1) (0 : Fin 1) p k)) 0#32) (Ideal.ofBits .f32 0xCE6E6B28#32)
    ((∑ d : Fin 64, P0 (ix4 (0 : Fin 1) (0 : Fin 1) p d) * P1 (ix4 (0 : Fin 1) (0 : Fin 1) k d)) * Ideal.ofBits .f32 0x3E000000#32
      + (P2 (ix4 (0 : Fin 1) (0 : Fin 1) p k) + P3 (ix4 (0 : Fin 1) (0 : Fin 1) p k)))

/-! ## The first product -/

/-- The product of the query block with the transposed keys, entry (p, k): the sum over d of P0(p, d) * P1(k, d). -/
theorem qk_apply (d : DotDims S512x64 S64x1024 S512x1024) (hd : IsPlain d) (hr : d.contr.rank = 1)
    (hs : d.contr.size ⟨0, by omega⟩ = 64) (prec : Option ContractPrecision)
    (h0 : S1x1x512x64.ShapeCasts S512x64) (h1 : S1x1x1024x64.ShapeCasts S1024x64) (ht : S1024x64.Transposes [1, 0] S64x1024)
    (p : Fin 512) (k : Fin 1024) :
    FloatOps.matmul (F := Ideal) d prec (shapeCast S512x64 P0 h0 : FVec Ideal S512x64 .f32)
        (transpose S64x1024 [1, 0] (shapeCast S1024x64 P1 h1 : FVec Ideal S1024x64 .f32) ht : FVec Ideal S64x1024 .f32)
        (constant S512x1024 .f32 0x00000000#32) (ix2 p k)
      = ∑ e : Fin 64, P0 (ix4 (0 : Fin 1) (0 : Fin 1) p e) * P1 (ix4 (0 : Fin 1) (0 : Fin 1) k e) := by
  refine (matmul_zero_apply hd hr hs prec _ _ p k).trans (Finset.sum_congr rfl fun e _ => ?_)
  rw [dropUnits_apply P0 h0 p e, transpose_ix2_apply _ ht e k, dropUnits_apply P1 h1 k e]

/-! ## The masked scores of the block -/

/-- The masked scores as the body computes them, a [512, 1024] vector. -/
def masked : FVec Ideal S512x1024 .f32 :=
  select (cmpi .ne (shapeCast S512x1024 P4 shapeCasts_S1x1x512x1024_S512x1024) (constantI S512x1024 32 0#32))
    (broadcast S512x1024 (Scalar.ofBits .f32 0xCE6E6B28#32))
    (addf (mulf (matmul dot_S512x64_S64x1024_S512x1024_1_0_0_1_n_n (some .fp32)
          (shapeCast S512x64 P0 shapeCasts_S1x1x512x64_S512x64 : FVec Ideal S512x64 .f32)
          (transpose S64x1024 [1, 0] (shapeCast S1024x64 P1 shapeCasts_S1x1x1024x64_S1024x64 : FVec Ideal S1024x64 .f32)
            transposes_S1024x64_p1_0_S64x1024 : FVec Ideal S64x1024 .f32)
          (constant S512x1024 .f32 0x00000000#32))
        (broadcast S512x1024 (Scalar.ofBits .f32 0x3E000000#32)))
      (addf (shapeCast S512x1024 P2 shapeCasts_S1x1x512x1024_S512x1024 : FVec Ideal S512x1024 .f32)
        (shapeCast S512x1024 P3 shapeCasts_S1x1x512x1024_S512x1024 : FVec Ideal S512x1024 .f32)))

/-- Entry (p, k) of the masked scores is the block's score. -/
theorem masked_apply (p : Fin 512) (k : Fin 1024) : masked P0 P1 P2 P3 P4 (ix2 p k) = bscore P0 P1 P2 P3 P4 p k := by
  show Scalar.select (IntOp.cmpi .ne (shapeCast S512x1024 P4 shapeCasts_S1x1x512x1024_S512x1024 (ix2 p k)) 0#32)
      (Ideal.ofBits .f32 0xCE6E6B28#32)
      (FloatOps.matmul dot_S512x64_S64x1024_S512x1024_1_0_0_1_n_n (some .fp32)
          (shapeCast S512x64 P0 shapeCasts_S1x1x512x64_S512x64 : FVec Ideal S512x64 .f32)
          (transpose S64x1024 [1, 0] (shapeCast S1024x64 P1 shapeCasts_S1x1x1024x64_S1024x64 : FVec Ideal S1024x64 .f32)
            transposes_S1024x64_p1_0_S64x1024 : FVec Ideal S64x1024 .f32)
          (constant S512x1024 .f32 0x00000000#32) (ix2 p k) * Ideal.ofBits .f32 0x3E000000#32
        + (shapeCast S512x1024 P2 shapeCasts_S1x1x512x1024_S512x1024 (ix2 p k)
          + shapeCast S512x1024 P3 shapeCasts_S1x1x512x1024_S512x1024 (ix2 p k))) = _
  rw [qk_apply P0 P1 _ ⟨rfl, rfl, rfl, rfl, rfl, rfl⟩ rfl rfl, dropUnits_apply P4, dropUnits_apply P2, dropUnits_apply P3]
  rfl

/-! ## The row maximum, the exponentials, the denominator -/

/-- The lane maximum of row `p`, from -infinity, is the fold of max over the row's scores. -/
theorem rowmax_apply (p : Fin 512) :
    multiReduction .maximumf [1] S512 (masked P0 P1 P2 P3 P4) 0xFF800000#32 reduces_S512x1024_S512 (.inl rfl) rfl (ix1 p)
      = rowMax (bscore P0 P1 P2 P3 P4 p) := by
  refine (Ideal.multiReduction_maximumf_single (masked P0 P1 P2 P3 P4) 0xFF800000#32 reduces_S512x1024_S512
    (.inl rfl) rfl (ix1 p)).trans ?_
  have hrow : (masked P0 P1 P2 P3 P4 ∘ reduces_S512x1024_S512.lift (ix1 p)) = bscore P0 P1 P2 P3 P4 p := by
    refine funext fun (k : Fin 1024) => ?_
    have e : reduces_S512x1024_S512.lift (ix1 p) k = ix2 p k :=
      funext fun a => Fin.ext (by match a with | ⟨0, _⟩ => rfl | ⟨1, _⟩ => rfl)
    show masked P0 P1 P2 P3 P4 (reduces_S512x1024_S512.lift (ix1 p) k) = _
    rw [e, masked_apply]
  rw [hrow]
  rfl

/-- The body's exponentials are the masked scores less their row maxima, exponentiated. -/
theorem pay5_eq : k0_pay5 P0 P1 P2 P3 P4
    = exp (subf (masked P0 P1 P2 P3 P4)
        (broadcastTo S512x1024 (shapeCast S512x1
          (multiReduction .maximumf [1] S512 (masked P0 P1 P2 P3 P4) 0xFF800000#32 reduces_S512x1024_S512 (.inl rfl) rfl)
          shapeCasts_S512_S512x1) broadcasts_S512x1_S512x1024)) := rfl

/-- Entry (p, k) of the exponentials. -/
theorem pay5_apply (p : Fin 512) (k : Fin 1024) :
    k0_pay5 P0 P1 P2 P3 P4 (ix2 p k) = expRow (bscore P0 P1 P2 P3 P4 p) k := by
  rw [pay5_eq]
  show Ideal.exp (masked P0 P1 P2 P3 P4 (ix2 p k)
      - broadcastTo S512x1024 (shapeCast S512x1
          (multiReduction .maximumf [1] S512 (masked P0 P1 P2 P3 P4) 0xFF800000#32 reduces_S512x1024_S512 (.inl rfl) rfl)
          shapeCasts_S512_S512x1) broadcasts_S512x1_S512x1024 (ix2 p k))
    = Ideal.exp (bscore P0 P1 P2 P3 P4 p k - rowMax (bscore P0 P1 P2 P3 P4 p))
  exact congrArg Ideal.exp (congrArg₂ (· - ·) (masked_apply P0 P1 P2 P3 P4 p k)
    ((broadcastTo_a1_ab_apply _ _ p k).trans ((shapeCast_a_a1_apply _ _ p 0).trans (rowmax_apply P0 P1 P2 P3 P4 p))))

/-- The lane sum of row `p` of the exponentials, from zero. -/
theorem denom_apply (p : Fin 512) :
    multiReduction .add [1] S512 (k0_pay5 P0 P1 P2 P3 P4) 0x00000000#32 reduces_S512x1024_S512 (.inl rfl) rfl (ix1 p)
      = ∑ k : Fin 1024, expRow (bscore P0 P1 P2 P3 P4 p) k := by
  refine (Ideal.multiReduction_add_single (k0_pay5 P0 P1 P2 P3 P4) 0x00000000#32 reduces_S512x1024_S512
    (.inl rfl) rfl (ix1 p)).trans ?_
  refine Finset.sum_congr rfl fun (k : Fin 1024) _ => ?_
  have e : reduces_S512x1024_S512.lift (ix1 p) k = ix2 p k :=
    funext fun a => Fin.ext (by match a with | ⟨0, _⟩ => rfl | ⟨1, _⟩ => rfl)
  rw [e, pay5_apply]

/-! ## The two stored blocks -/

/-- The attention block the body stores, entry (0, 0, p, k): the weight of key `k` in row `p`. -/
theorem weights_apply (p : Fin 512) (k : Fin 1024) :
    E7 P0 P1 P2 P3 P4 (ix4 (0 : Fin 1) (0 : Fin 1) p k) = weight (bscore P0 P1 P2 P3 P4 p) k := by
  have e0 : ix7_0 (ix4 (0 : Fin 1) (0 : Fin 1) p k) = ix2 p k :=
    funext fun a => Fin.ext (by match a with | ⟨0, _⟩ => rfl | ⟨1, _⟩ => rfl)
  have e1 : ix7_1 (ix4 (0 : Fin 1) (0 : Fin 1) p k) = ix1 p :=
    funext fun a => Fin.ext (by match a with | ⟨0, _⟩ => rfl)
  show Ideal.div (k0_pay5 P0 P1 P2 P3 P4 (ix7_0 (ix4 (0 : Fin 1) (0 : Fin 1) p k)))
      (multiReduction .add [1] S512 (k0_pay5 P0 P1 P2 P3 P4) 0x00000000#32 reduces_S512x1024_S512 (.inl rfl) rfl
        (ix7_1 (ix4 (0 : Fin 1) (0 : Fin 1) p k))) = _
  rw [e0, e1]
  exact congrArg₂ Ideal.div (pay5_apply P0 P1 P2 P3 P4 p k) (denom_apply P0 P1 P2 P3 P4 p)

/-- The quotient the second product reads, entry (p, k), is the same weight. -/
theorem pay1_apply (p : Fin 512) (k : Fin 1024) :
    k0_pay1 (k0_pay5 P0 P1 P2 P3 P4) (k0_pay6 P0 P1 P2 P3 P4) (ix2 p k) = weight (bscore P0 P1 P2 P3 P4 p) k := by
  show Ideal.div (k0_pay5 P0 P1 P2 P3 P4 (ix2 p k))
      (broadcastTo S512x1024 (shapeCast S512x1
          (multiReduction .add [1] S512 (k0_pay5 P0 P1 P2 P3 P4) 0x00000000#32 reduces_S512x1024_S512 (.inl rfl) rfl)
          shapeCasts_S512_S512x1) broadcasts_S512x1_S512x1024 (ix2 p k)) = _
  exact congrArg₂ Ideal.div (pay5_apply P0 P1 P2 P3 P4 p k)
    ((broadcastTo_a1_ab_apply _ _ p k).trans ((shapeCast_a_a1_apply _ _ p 0).trans (denom_apply P0 P1 P2 P3 P4 p)))

/-- The context block the body stores, entry (0, 0, p, d): the row's weights against column d of the values. -/
theorem context_apply (p : Fin 512) (d : Fin 64) :
    k0_pay3 (k0_pay4 PV) (k0_pay5 P0 P1 P2 P3 P4) (k0_pay6 P0 P1 P2 P3 P4) (ix4 (0 : Fin 1) (0 : Fin 1) p d)
      = ∑ k : Fin 1024, weight (bscore P0 P1 P2 P3 P4 p) k * PV (ix4 (0 : Fin 1) (0 : Fin 1) k d) := by
  show shapeCast S1x1x512x64
      (matmul dot_S512x1024_S1024x64_S512x64_1_0_0_1_n_n (some .fp32)
        (k0_pay1 (k0_pay5 P0 P1 P2 P3 P4) (k0_pay6 P0 P1 P2 P3 P4))
        (shapeCast S1024x64 PV shapeCasts_S1x1x1024x64_S1024x64) (constant S512x64 .f32 0x00000000#32))
      shapeCasts_S512x64_S1x1x512x64 (ix4 (0 : Fin 1) (0 : Fin 1) p d) = _
  rw [addUnits_apply]
  refine (matmul_zero_apply (d := dot_S512x1024_S1024x64_S512x64_1_0_0_1_n_n) ⟨rfl, rfl, rfl, rfl, rfl, rfl⟩ rfl rfl
    (some .fp32) _ _ p d).trans (Finset.sum_congr rfl fun k _ => ?_)
  rw [pay1_apply, dropUnits_apply PV _ k d]

/-! ## What the body leaves in the two output blocks -/

/-- The offsets of a whole-block access are all zero. -/
theorem hz : (![0, 0, 0, 0] : Fin 4 → Nat) = fun _ => 0 := funext fun a => by fin_cases a <;> rfl

variable (x0 : Vec Ideal S1x1x512x64 .f32) (x1 x2 : Vec Ideal S1x1x1024x64 .f32)
  (x3 x4 : Vec Ideal S1x1x512x1024 .f32) (x5 : Vec Ideal S1x1x512x1024 .i32)

/-- The attention block after the body, entry (0, 0, p, k), from the six input blocks. -/
theorem out7_apply (p : Fin 512) (k : Fin 1024) :
    out0_7 x0 x1 x2 x3 x4 x5 (ix4 (0 : Fin 1) (0 : Fin 1) p k) = weight (bscore x0 x1 x3 x4 x5 p) k := by
  unfold out0_7
  simp only [View.ld_unit_zero (S := S1x1x512x64) hz, View.ld_unit_zero (S := S1x1x1024x64) hz,
    View.ld_unit_zero (S := S1x1x512x1024) hz]
  exact (canon7_eq (F := Ideal) x0 x1 x3 x4 x5 (ix4 (0 : Fin 1) (0 : Fin 1) p k)).trans (weights_apply x0 x1 x3 x4 x5 p k)

/-- The context block after the body, entry (0, 0, p, d), from the six input blocks. -/
theorem out6_apply (p : Fin 512) (d : Fin 64) :
    out0_6 x0 x1 x2 x3 x4 x5 (ix4 (0 : Fin 1) (0 : Fin 1) p d)
      = ∑ k : Fin 1024, weight (bscore x0 x1 x3 x4 x5 p) k * x2 (ix4 (0 : Fin 1) (0 : Fin 1) k d) := by
  unfold out0_6
  simp only [View.ld_unit_zero (S := S1x1x512x64) hz, View.ld_unit_zero (S := S1x1x1024x64) hz,
    View.ld_unit_zero (S := S1x1x512x1024) hz]
  rw [View.canon_unit_zero hz]
  exact context_apply x0 x1 x2 x3 x4 x5 p d

/-! ## A block's row of scores is a row of the arrays' scores -/

/-- When row `p` of the query, bias and condition blocks is row `q` of batch `b`, head `h` of the arrays, and the key
    block is that batch's and head's keys, the block's scores of row `p` are the specification's scores of row
    `(b, h, q)`, the condition bit being "the condition word is not zero". -/
theorem bscore_eq_score (Q K : I64 → EReal) (A B : I1024 → EReal) (W : I1024 → BitVec 32)
    (b : Fin 2) (h : Fin 16) (q : Fin 1024) (p : Fin 512)
    (h0 : ∀ d : Fin 64, x0 (ix4 (0 : Fin 1) (0 : Fin 1) p d) = Q (ix4 b h q d))
    (h1 : ∀ (k : Fin 1024) (d : Fin 64), x1 (ix4 (0 : Fin 1) (0 : Fin 1) k d) = K (ix4 b h k d))
    (h3 : ∀ k : Fin 1024, x3 (ix4 (0 : Fin 1) (0 : Fin 1) p k) = A (ix4 b h q k))
    (h4 : ∀ k : Fin 1024, x4 (ix4 (0 : Fin 1) (0 : Fin 1) p k) = B (ix4 b h q k))
    (h5 : ∀ k : Fin 1024, x5 (ix4 (0 : Fin 1) (0 : Fin 1) p k) = W (ix4 b h q k)) :
    bscore x0 x1 x3 x4 x5 p = score Q K A B (fun i => IntOp.cmpi .ne (W i) 0#32) b h q := by
  funext k
  unfold bscore score
  simp only [h0, h1, h3, h4, h5]

end Cert.Attn.Block

end
-- ==== Proof.KernelArray.lean ====
/-
  From the kernel's grid points to its two result arrays.

  The grid has 2 x 16 x 2 points (batch b, head h, half qi of the 1024 query rows). At a point the query, bias and
  condition windows and both output windows hold rows qi*512 ... qi*512 + 511 of batch b, head h; the key and value
  windows hold all 1024 rows of that batch and head. So entry (0, 0, p, .) of a window's block is entry
  (b, h, qi*512 + p, .) of its array (for keys and values: entry (b, h, k, .)), and what the point writes back is the
  block of the specification's arrays: the condition words are the condition bits widened to 32 bits before the
  region, and a widened bit is nonzero exactly when it is set. Every index of either result lies in exactly the block
  of the point (i0, i1, i2 / 512), so after the run the two result arrays are the specification's weights and context.
-/
import proofs.«112944_j9732395892963_2_alg».proof.Proof.KernelBlock
import Idealize.ShloMosaic.Lib.Pipeline.Value
import Idealize.ShloMosaic.Lib.StableHlo.Run

noncomputable section

namespace Cert.Attn.Array

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.Attn.Block

variable (m : (ℓ : Loc nD τ sig) → Buf (Elt Ideal) ℓ) (ρ : Dev nD → PrngReg)

/-! ## The index maps, decided over the 64 points -/

/-- The attention window's block index is (b, h, qi, 0) with b < 2, h < 16, qi < 2. -/
theorem idx_out : ∀ t : Fin cfg0.N, win0_7.index t (0 : Fin 4) < 2 ∧ win0_7.index t (1 : Fin 4) < 16
    ∧ win0_7.index t (2 : Fin 4) < 2 ∧ win0_7.index t (3 : Fin 4) = 0 :=
  (by decide +kernel : ∀ t : Fin grid0.N, _)

/-- The context window moves with the attention window. -/
theorem idx_ctx : ∀ t : Fin cfg0.N, win0_6.index t (0 : Fin 4) = win0_7.index t (0 : Fin 4)
    ∧ win0_6.index t (1 : Fin 4) = win0_7.index t (1 : Fin 4) ∧ win0_6.index t (2 : Fin 4) = win0_7.index t (2 : Fin 4)
    ∧ win0_6.index t (3 : Fin 4) = 0 :=
  (by decide +kernel : ∀ t : Fin grid0.N, _)

/-- So does the query window. -/
theorem idx_q : ∀ t : Fin cfg0.N, win0_0.index t (0 : Fin 4) = win0_7.index t (0 : Fin 4)
    ∧ win0_0.index t (1 : Fin 4) = win0_7.index t (1 : Fin 4) ∧ win0_0.index t (2 : Fin 4) = win0_7.index t (2 : Fin 4)
    ∧ win0_0.index t (3 : Fin 4) = 0 :=
  (by decide +kernel : ∀ t : Fin grid0.N, _)

/-- The key window keeps batch and head and always starts at row 0. -/
theorem idx_k : ∀ t : Fin cfg0.N, win0_1.index t (0 : Fin 4) = win0_7.index t (0 : Fin 4)
    ∧ win0_1.index t (1 : Fin 4) = win0_7.index t (1 : Fin 4) ∧ win0_1.index t (2 : Fin 4) = 0
    ∧ win0_1.index t (3 : Fin 4) = 0 :=
  (by decide +kernel : ∀ t : Fin grid0.N, _)

/-- So does the value window. -/
theorem idx_v : ∀ t : Fin cfg0.N, win0_2.index t (0 : Fin 4) = win0_7.index t (0 : Fin 4)
    ∧ win0_2.index t (1 : Fin 4) = win0_7.index t (1 : Fin 4) ∧ win0_2.index t (2 : Fin 4) = 0
    ∧ win0_2.index t (3 : Fin 4) = 0 :=
  (by decide +kernel : ∀ t : Fin grid0.N, _)

/-- The two bias windows and the condition window move with the attention window. -/
theorem idx_a : ∀ t : Fin cfg0.N, win0_3.index t (0 : Fin 4) = win0_7.index t (0 : Fin 4)
    ∧ win0_3.index t (1 : Fin 4) = win0_7.index t (1 : Fin 4) ∧ win0_3.index t (2 : Fin 4) = win0_7.index t (2 : Fin 4)
    ∧ win0_3.index t (3 : Fin 4) = 0 :=
  (by decide +kernel : ∀ t : Fin grid0.N, _)

theorem idx_b : ∀ t : Fin cfg0.N, win0_4.index t (0 : Fin 4) = win0_7.index t (0 : Fin 4)
    ∧ win0_4.index t (1 : Fin 4) = win0_7.index t (1 : Fin 4) ∧ win0_4.index t (2 : Fin 4) = win0_7.index t (2 : Fin 4)
    ∧ win0_4.index t (3 : Fin 4) = 0 :=
  (by decide +kernel : ∀ t : Fin grid0.N, _)

theorem idx_w : ∀ t : Fin cfg0.N, win0_5.index t (0 : Fin 4) = win0_7.index t (0 : Fin 4)
    ∧ win0_5.index t (1 : Fin 4) = win0_7.index t (1 : Fin 4) ∧ win0_5.index t (2 : Fin 4) = win0_7.index t (2 : Fin 4)
    ∧ win0_5.index t (3 : Fin 4) = 0 :=
  (by decide +kernel : ∀ t : Fin grid0.N, _)

/-- Every (b, h, qi) is some point's block index. -/
theorem idx_onto : ∀ (b : Fin 2) (h : Fin 16) (qi : Fin 2), ∃ t : Fin cfg0.N,
    win0_7.index t = ![b.val, h.val, qi.val, 0] :=
  (by decide +kernel : ∀ (b : Fin 2) (h : Fin 16) (qi : Fin 2), ∃ t : Fin grid0.N, win0_7.index t = ![b.val, h.val, qi.val, 0])

/-! ## The arrays as the region finds them -/

/-- The condition words: the condition bits widened to 32 bits by the one operation before the region. -/
theorem words_eq (c : Dev nD) :
    (V m c main_v0 : I1024 → BitVec 32) = extui 32 (m ((c : Thread nD τ).loc main_arg4)) natLt_1_32 := by
  dsimp only [V, hostOps0]; after_results <;> rfl

/-- "The condition word is not zero" is the condition bit. -/
theorem cond_eq (c : Dev nD) :
    (fun i => IntOp.cmpi .ne ((V m c main_v0 : I1024 → BitVec 32) i) 0#32) = ((m ((c : Thread nD τ).loc main_arg4)) : I1024 → BitVec 1) := by
  funext i
  rw [words_eq]
  exact ne_zero_setWidth _

/-! ## The input windows' blocks at a point -/

section Blocks

variable (c : Dev nD) (t : Fin cfg0.N) (b : Fin 2) (h : Fin 16) (q : Fin 1024) (p : Fin 512)
  (hb : b.val = win0_7.index t (0 : Fin 4)) (hh : h.val = win0_7.index t (1 : Fin 4))
  (hq : q.val = win0_7.index t (2 : Fin 4) * 512 + p.val)

include hb hh hq in
/-- Row `p` of the query block is row `q` of batch `b`, head `h` of the queries. -/
theorem block_q (d : Fin 64) :
    (iblk m c 0 t : Vec Ideal S1x1x512x64 .f32) (ix4 (0 : Fin 1) (0 : Fin 1) p d) = (V m c main_arg0 : I64 → EReal) (ix4 b h q d) := by
  obtain ⟨e0, e1, e2, e3⟩ := idx_q t
  unfold iblk
  rw [View.read_apply]
  show (V m c main_arg0 : I64 → EReal) _ = _
  refine congrArg (V m c main_arg0 : I64 → EReal) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * p.val = q.val; omega
  | ⟨3, _⟩ => show win0_0.index t (3 : Fin 4) * 64 + 1 * d.val = d.val; omega

include hb hh in
/-- Row `k` of the key block is row `k` of batch `b`, head `h` of the keys. -/
theorem block_k (k : Fin 1024) (d : Fin 64) :
    (iblk m c 1 t : Vec Ideal S1x1x1024x64 .f32) (ix4 (0 : Fin 1) (0 : Fin 1) k d) = (V m c main_arg1 : I64 → EReal) (ix4 b h k d) := by
  obtain ⟨e0, e1, e2, e3⟩ := idx_k t
  unfold iblk
  rw [View.read_apply]
  show (V m c main_arg1 : I64 → EReal) _ = _
  refine congrArg (V m c main_arg1 : I64 → EReal) (funext fun a => Fin.ext ?_)
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 1024 + 1 * k.val = k.val; omega
  | ⟨3, _⟩ => show win0_1.index t (3 : Fin 4) * 64 + 1 * d.val = d.val; omega

include hb hh in
/-- Row `k` of the value block is row `k` of batch `b`, head `h` of the values. -/
theorem block_v (k : Fin 1024) (d : Fin 64) :
    (iblk m c 2 t : Vec Ideal S1x1x1024x64 .f32) (ix4 (0 : Fin 1) (0 : Fin 1) k d) = (V m c main_arg2 : I64 → EReal) (ix4 b h k d) := by
  obtain ⟨e0, e1, e2, e3⟩ := idx_v t
  unfold iblk
  rw [View.read_apply]
  show (V m c main_arg2 : I64 → EReal) _ = _
  refine congrArg (V m c main_arg2 : I64 → EReal) (funext fun a => Fin.ext ?_)
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 1024 + 1 * k.val = k.val; omega
  | ⟨3, _⟩ => show win0_2.index t (3 : Fin 4) * 64 + 1 * d.val = d.val; omega

include hb hh hq in
/-- Row `p` of the first bias block is row `q` of batch `b`, head `h` of the first bias. -/
theorem block_a (k : Fin 1024) :
    (iblk m c 3 t : Vec Ideal S1x1x512x1024 .f32) (ix4 (0 : Fin 1) (0 : Fin 1) p k) = (V m c main_arg5 : I1024 → EReal) (ix4 b h q k) := by
  obtain ⟨e0, e1, e2, e3⟩ := idx_a t
  unfold iblk
  rw [View.read_apply]
  show (V m c main_arg5 : I1024 → EReal) _ = _
  refine congrArg (V m c main_arg5 : I1024 → EReal) (funext fun a => Fin.ext ?_)
  match a with
  | ⟨0, _⟩ => show win0_3.index t (0 : Fin 4) * 1 + 1 * 0 = b.val; omega
  | ⟨1, _⟩ => show win0_3.index t (1 : Fin 4) * 1 + 1 * 0 = h.val; omega
  | ⟨2, _⟩ => show win0_3.index t (2 : Fin 4) * 512 + 1 * p.val = q.val; omega
  | ⟨3, _⟩ => show win0_3.index t (3 : Fin 4) * 1024 + 1 * k.val = k.val; omega

include hb hh hq in
/-- Row `p` of the second bias block is row `q` of batch `b`, head `h` of the second bias. -/
theorem block_b (k : Fin 1024) :
    (iblk m c 4 t : Vec Ideal S1x1x512x1024 .f32) (ix4 (0 : Fin 1) (0 : Fin 1) p k) = (V m c main_arg6 : I1024 → EReal) (ix4 b h q k) := by
  obtain ⟨e0, e1, e2, e3⟩ := idx_b t
  unfold iblk
  rw [View.read_apply]
  show (V m c main_arg6 : I1024 → EReal) _ = _
  refine congrArg (V m c main_arg6 : I1024 → EReal) (funext fun a => Fin.ext ?_)
  match a with
  | ⟨0, _⟩ => show win0_4.index t (0 : Fin 4) * 1 + 1 * 0 = b.val; omega
  | ⟨1, _⟩ => show win0_4.index t (1 : Fin 4) * 1 + 1 * 0 = h.val; omega
  | ⟨2, _⟩ => show win0_4.index t (2 : Fin 4) * 512 + 1 * p.val = q.val; omega
  | ⟨3, _⟩ => show win0_4.index t (3 : Fin 4) * 1024 + 1 * k.val = k.val; omega

include hb hh hq in
/-- Row `p` of the condition block is row `q` of batch `b`, head `h` of the condition words. -/
theorem block_w (k : Fin 1024) :
    (iblk m c 5 t : Vec Ideal S1x1x512x1024 .i32) (ix4 (0 : Fin 1) (0 : Fin 1) p k) = (V m c main_v0 : I1024 → BitVec 32) (ix4 b h q k) := by
  obtain ⟨e0, e1, e2, e3⟩ := idx_w t
  unfold iblk
  rw [View.read_apply]
  show (V m c main_v0 : I1024 → BitVec 32) _ = _
  refine congrArg (V m c main_v0 : I1024 → BitVec 32) (funext fun a => Fin.ext ?_)
  match a with
  | ⟨0, _⟩ => show win0_5.index t (0 : Fin 4) * 1 + 1 * 0 = b.val; omega
  | ⟨1, _⟩ => show win0_5.index t (1 : Fin 4) * 1 + 1 * 0 = h.val; omega
  | ⟨2, _⟩ => show win0_5.index t (2 : Fin 4) * 512 + 1 * p.val = q.val; omega
  | ⟨3, _⟩ => show win0_5.index t (3 : Fin 4) * 1024 + 1 * k.val = k.val; omega

/-- The specification's weights and context over the arrays as the region finds them. -/
def weightsV : I1024 → EReal :=
  attn (V m c main_arg0) (V m c main_arg1) (V m c main_arg5) (V m c main_arg6)
    (fun i => IntOp.cmpi .ne ((V m c main_v0 : I1024 → BitVec 32) i) 0#32)

def contextV : I64 → EReal :=
  ctx (V m c main_arg0) (V m c main_arg1) (V m c main_arg2) (V m c main_arg5) (V m c main_arg6)
    (fun i => IntOp.cmpi .ne ((V m c main_v0 : I1024 → BitVec 32) i) 0#32)

include hb hh hq in
/-- The point's block scores of row `p` are the arrays' scores of row `(b, h, q)`. -/
theorem row_scores :
    bscore (iblk m c 0 t) (iblk m c 1 t) (iblk m c 3 t) (iblk m c 4 t) (iblk m c 5 t) p
      = score (V m c main_arg0) (V m c main_arg1) (V m c main_arg5) (V m c main_arg6)
          (fun i => IntOp.cmpi .ne ((V m c main_v0 : I1024 → BitVec 32) i) 0#32) b h q :=
  bscore_eq_score (iblk m c 0 t) (iblk m c 1 t) (iblk m c 3 t) (iblk m c 4 t) (iblk m c 5 t)
    (V m c main_arg0) (V m c main_arg1) (V m c main_arg5) (V m c main_arg6) (V m c main_v0) b h q p
    (fun d => block_q m c t b h q p hb hh hq d) (fun k d => block_k m c t b h hb hh k d)
    (fun k => block_a m c t b h q p hb hh hq k) (fun k => block_b m c t b h q p hb hh hq k)
    (fun k => block_w m c t b h q p hb hh hq k)

include hb hh hq in
/-- What the point leaves in the attention block at (0, 0, p, k) is the specification's weight at (b, h, q, k). -/
theorem weights_point (k : Fin 1024) :
    out0_7 (iblk m c 0 t) (iblk m c 1 t) (iblk m c 2 t) (iblk m c 3 t) (iblk m c 4 t) (iblk m c 5 t)
        (ix4 (0 : Fin 1) (0 : Fin 1) p k) = weightsV m c (ix4 b h q k) :=
  (out7_apply (iblk m c 0 t) (iblk m c 1 t) (iblk m c 2 t) (iblk m c 3 t) (iblk m c 4 t) (iblk m c 5 t) p k).trans
    (congrArg (fun s => weight s k) (row_scores m c t b h q p hb hh hq))

include hb hh hq in
/-- What the point leaves in the context block at (0, 0, p, d) is the specification's context at (b, h, q, d). -/
theorem context_point (d : Fin 64) :
    out0_6 (iblk m c 0 t) (iblk m c 1 t) (iblk m c 2 t) (iblk m c 3 t) (iblk m c 4 t) (iblk m c 5 t)
        (ix4 (0 : Fin 1) (0 : Fin 1) p d) = contextV m c (ix4 b h q d) := by
  refine (out6_apply (iblk m c 0 t) (iblk m c 1 t) (iblk m c 2 t) (iblk m c 3 t) (iblk m c 4 t) (iblk m c 5 t) p d).trans ?_
  show _ = ∑ k : Fin 1024, weight (score (V m c main_arg0) (V m c main_arg1) (V m c main_arg5) (V m c main_arg6)
      (fun i => IntOp.cmpi .ne ((V m c main_v0 : I1024 → BitVec 32) i) 0#32) b h q) k * (V m c main_arg2 : I64 → EReal) (ix4 b h k d)
  rw [row_scores m c t b h q p hb hh hq]
  exact Finset.sum_congr rfl fun k _ => congrArg _ (block_v m c t b h hb hh k d)

end Blocks

/-! ## What a point writes back -/

/-- What point `t` writes back to the attention array is block `t` of the specification's weights. -/
theorem weights_flushed (c : Dev nD) (t : Fin cfg0.N) :
    (dats m 0 c).flushed 7 t = ((cfg0.win 7).blk t).view.read (Elt Ideal) (weightsV m c) := by
  rw [flushed7]
  obtain ⟨l0, l1, l2, e3⟩ := idx_out t
  funext j
  have hj0 : (j 0).val < 1 := (j 0).isLt
  have hj1 : (j 1).val < 1 := (j 1).isLt
  have hj2 : (j 2).val < 512 := (j 2).isLt
  have hj3 : (j 3).val < 1024 := (j 3).isLt
  have hx : (cfg0.win 7).xinj (grid0.coords t) j
      = ix4 (0 : Fin 1) (0 : Fin 1) (⟨(j 2).val, hj2⟩ : Fin 512) (⟨(j 3).val, hj3⟩ : Fin 1024) :=
    funext fun a => Fin.ext (by
      match a with
      | ⟨0, _⟩ => show (j 0).val = 0; omega
      | ⟨1, _⟩ => show (j 1).val = 0; omega
      | ⟨2, _⟩ => rfl
      | ⟨3, _⟩ => rfl)
  have he : ((cfg0.win 7).blk t).view.emb j
      = ix4 (⟨win0_7.index t (0 : Fin 4), l0⟩ : Fin 2) (⟨win0_7.index t (1 : Fin 4), l1⟩ : Fin 16)
          (⟨win0_7.index t (2 : Fin 4) * 512 + (j 2).val, by omega⟩ : Fin 1024) (⟨(j 3).val, hj3⟩ : Fin 1024) :=
    funext fun a => Fin.ext (by
      match a with
      | ⟨0, _⟩ => show win0_7.index t (0 : Fin 4) * 1 + 1 * (j 0).val = win0_7.index t (0 : Fin 4); omega
      | ⟨1, _⟩ => show win0_7.index t (1 : Fin 4) * 1 + 1 * (j 1).val = win0_7.index t (1 : Fin 4); omega
      | ⟨2, _⟩ => show win0_7.index t (2 : Fin 4) * 512 + 1 * (j 2).val = win0_7.index t (2 : Fin 4) * 512 + (j 2).val; omega
      | ⟨3, _⟩ => show win0_7.index t (3 : Fin 4) * 1024 + 1 * (j 3).val = (j 3).val; omega)
  show out0_7 (iblk m c 0 t) (iblk m c 1 t) (iblk m c 2 t) (iblk m c 3 t) (iblk m c 4 t) (iblk m c 5 t)
      ((cfg0.win 7).xinj (grid0.coords t) j) = weightsV m c (((cfg0.win 7).blk t).view.emb j)
  rw [hx, he]
  exact weights_point m c t _ _ _ _ rfl rfl rfl _

/-- What point `t` writes back to the context array is block `t` of the specification's context. -/
theorem context_flushed (c : Dev nD) (t : Fin cfg0.N) :
    (dats m 0 c).flushed 6 t = ((cfg0.win 6).blk t).view.read (Elt Ideal) (contextV m c) := by
  rw [flushed6]
  obtain ⟨l0, l1, l2, e3⟩ := idx_out t
  obtain ⟨c0, c1, c2, c3⟩ := idx_ctx t
  funext j
  have hj0 : (j 0).val < 1 := (j 0).isLt
  have hj1 : (j 1).val < 1 := (j 1).isLt
  have hj2 : (j 2).val < 512 := (j 2).isLt
  have hj3 : (j 3).val < 64 := (j 3).isLt
  have hx : (cfg0.win 6).xinj (grid0.coords t) j
      = ix4 (0 : Fin 1) (0 : Fin 1) (⟨(j 2).val, hj2⟩ : Fin 512) (⟨(j 3).val, hj3⟩ : Fin 64) :=
    funext fun a => Fin.ext (by
      match a with
      | ⟨0, _⟩ => show (j 0).val = 0; omega
      | ⟨1, _⟩ => show (j 1).val = 0; omega
      | ⟨2, _⟩ => rfl
      | ⟨3, _⟩ => rfl)
  have he : ((cfg0.win 6).blk t).view.emb j
      = ix4 (⟨win0_7.index t (0 : Fin 4), l0⟩ : Fin 2) (⟨win0_7.index t (1 : Fin 4), l1⟩ : Fin 16)
          (⟨win0_7.index t (2 : Fin 4) * 512 + (j 2).val, by omega⟩ : Fin 1024) (⟨(j 3).val, hj3⟩ : Fin 64) :=
    funext fun a => Fin.ext (by
      match a with
      | ⟨0, _⟩ => show win0_6.index t (0 : Fin 4) * 1 + 1 * (j 0).val = win0_7.index t (0 : Fin 4); omega
      | ⟨1, _⟩ => show win0_6.index t (1 : Fin 4) * 1 + 1 * (j 1).val = win0_7.index t (1 : Fin 4); omega
      | ⟨2, _⟩ => show win0_6.index t (2 : Fin 4) * 512 + 1 * (j 2).val = win0_7.index t (2 : Fin 4) * 512 + (j 2).val; omega
      | ⟨3, _⟩ => show win0_6.index t (3 : Fin 4) * 64 + 1 * (j 3).val = (j 3).val; omega)
  show out0_6 (iblk m c 0 t) (iblk m c 1 t) (iblk m c 2 t) (iblk m c 3 t) (iblk m c 4 t) (iblk m c 5 t)
      ((cfg0.win 6).xinj (grid0.coords t) j) = contextV m c (((cfg0.win 6).blk t).view.emb j)
  rw [hx, he]
  exact context_point m c t _ _ _ _ rfl rfl rfl _

/-! ## The blocks cover the arrays -/

/-- Every index of the attention array is in the block of the point (i0, i1, i2 / 512). -/
theorem weights_cover (i : I1024) :
    ∃ t : Fin cfg0.N, (cfg0.win 7).flush t = true ∧ i ∈ ((cfg0.win 7).blk t).view.set := by
  have h0 : (i 0).val < 2 := (i 0).isLt
  have h1 : (i 1).val < 16 := (i 1).isLt
  have h2 : (i 2).val < 1024 := (i 2).isLt
  have h3 : (i 3).val < 1024 := (i 3).isLt
  obtain ⟨t, ht⟩ := idx_onto ⟨(i 0).val, h0⟩ ⟨(i 1).val, h1⟩ ⟨(i 2).val / 512, by omega⟩
  have q0 : win0_7.index t (0 : Fin 4) = (i 0).val := congrFun ht 0
  have q1 : win0_7.index t (1 : Fin 4) = (i 1).val := congrFun ht 1
  have q2 : win0_7.index t (2 : Fin 4) = (i 2).val / 512 := congrFun ht 2
  have q3 : win0_7.index t (3 : Fin 4) = 0 := congrFun ht 3
  refine ⟨t, flush0_7 t, ?_⟩
  show i ∈ ((View.whole main_v1_1).slice (win0_7.rect t)).set
  rw [View.set_slice_whole, Rect.mem_set_unit]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 1 ≤ (i 1).val ∧ (i 1).val < win0_7.index t (1 : Fin 4) * 1 + 1; omega
  | ⟨2, _⟩ => show win0_7.index t (2 : Fin 4) * 512 ≤ (i 2).val ∧ (i 2).val < win0_7.index t (2 : Fin 4) * 512 + 512; omega
  | ⟨3, _⟩ => show win0_7.index t (3 : Fin 4) * 1024 ≤ (i 3).val ∧ (i 3).val < win0_7.index t (3 : Fin 4) * 1024 + 1024; omega

/-- Every index of the context array is in the block of the point (i0, i1, i2 / 512). -/
theorem context_cover (i : I64) :
    ∃ t : Fin cfg0.N, (cfg0.win 6).flush t = true ∧ i ∈ ((cfg0.win 6).blk t).view.set := by
  have h0 : (i 0).val < 2 := (i 0).isLt
  have h1 : (i 1).val < 16 := (i 1).isLt
  have h2 : (i 2).val < 1024 := (i 2).isLt
  have h3 : (i 3).val < 64 := (i 3).isLt
  obtain ⟨t, ht⟩ := idx_onto ⟨(i 0).val, h0⟩ ⟨(i 1).val, h1⟩ ⟨(i 2).val / 512, by omega⟩
  obtain ⟨c0, c1, c2, c3⟩ := idx_ctx t
  have q0 : win0_7.index t (0 : Fin 4) = (i 0).val := congrFun ht 0
  have q1 : win0_7.index t (1 : Fin 4) = (i 1).val := congrFun ht 1
  have q2 : win0_7.index t (2 : Fin 4) = (i 2).val / 512 := congrFun ht 2
  refine ⟨t, flush0_6 t, ?_⟩
  show i ∈ ((View.whole main_v1_0).slice (win0_6.rect t)).set
  rw [View.set_slice_whole, Rect.mem_set_unit]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 512 ≤ (i 2).val ∧ (i 2).val < win0_6.index t (2 : Fin 4) * 512 + 512; omega
  | ⟨3, _⟩ => show win0_6.index t (3 : Fin 4) * 64 ≤ (i 3).val ∧ (i 3).val < win0_6.index t (3 : Fin 4) * 64 + 64; omega

/-! ## The two arrays after the run -/

/-- The attention array ends holding the specification's weights. -/
theorem weights_final (c : Dev nD) : (dats m 0 c).arrAt 7 cfg0.N = weightsV m c :=
  (dats m 0 c).arrAt_eq_of_cover 7 (weightsV m c) (fun t _ => weights_flushed m c t) weights_cover

/-- The context array ends holding the specification's context. -/
theorem context_final (c : Dev nD) : (dats m 0 c).arrAt 6 cfg0.N = contextV m c :=
  (dats m 0 c).arrAt_eq_of_cover 6 (contextV m c) (fun t _ => context_flushed m c t) context_cover

/-- Over the arguments as launched: no operation before the region writes them, and the condition words give the
    condition bits back. -/
theorem weightsV_eq (c : Dev nD) :
    weightsV m c = attn (m ((c : Thread nD τ).loc main_arg0)) (m ((c : Thread nD τ).loc main_arg1)) (m ((c : Thread nD τ).loc main_arg5)) (m ((c : Thread nD τ).loc main_arg6)) (m ((c : Thread nD τ).loc main_arg4)) := by
  unfold weightsV
  rw [V_main_arg0, V_main_arg1, V_main_arg5, V_main_arg6]
  exact congrArg (attn _ _ _ _) (cond_eq m c)

theorem contextV_eq (c : Dev nD) :
    contextV m c = ctx (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg4)) := by
  unfold contextV
  rw [V_main_arg0, V_main_arg1, V_main_arg2, V_main_arg5, V_main_arg6]
  exact congrArg (ctx _ _ _ _ _) (cond_eq m c)

/-- The kernel's run: every weakly fair execution terminates with the first result at the specification's context and
    the second at its weights, of the arguments as launched, which end unchanged. -/
theorem run : θ_run defs (onTc (τ := τ) (main (F := Ideal))) ⟨m, fun _ => 0, ρ⟩ fun r => ∀ c : Dev nD,
      r.2.mem ((c : Thread nD τ).loc main_v1_0)
        = ctx (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg4))
      ∧ r.2.mem ((c : Thread nD τ).loc main_v1_1)
        = attn (m ((c : Thread nD τ).loc main_arg0)) (m ((c : Thread nD τ).loc main_arg1)) (m ((c : Thread nD τ).loc main_arg5)) (m ((c : Thread nD τ).loc main_arg6)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((context_final m c).trans (contextV_eq m c)),
      (h c).2.1.trans ((weights_final m c).trans (weightsV_eq m c)), (h c).2.2⟩)
    (run_blocks m ρ)

end Cert.Attn.Array

end
-- ==== Proof.RefAttn.lean ====
/-
  The reference's two results are the specification (Proof/AttnSpec.lean).

  The reference's program is read one operation at a time through its generated read-at-an-index lemmas. At the
  index (b, h, q, k) the masked sum of the scaled product and the two biases is the specification's score (the
  division by the square root of 64 and the order of the two additions settled there). The maximum along the last
  axis, read at (b, h, q), is the fold of max from -infinity over that row of scores; the program takes max with
  -infinity once more, which changes nothing. Subtracting it and exponentiating gives the row of exponentials; their
  sum along the last axis (started at zero) is the row's denominator; the quotient is the weight. The second
  contraction sums, over the key position k, the weight at (b, h, q, k) times the value at (b, h, k, d).
-/
import proofs.«112944_j9732395892963_2_alg».proof.Proof.Gen.ReferenceIdeal.Read
import proofs.«112944_j9732395892963_2_alg».proof.Proof.AttnSpec

noncomputable section

namespace Cert.Attn.Ref

open Cert.ReferenceIdeal Cert.ReferenceIdeal.Gen Cert.ReferenceIdeal.Read
open Idealize.ShloMosaic Idealize.ShloMosaic.TcCoe Idealize.ShloMosaic.ValueIdx

variable (Q K V : I64 → EReal) (A B : I1024 → EReal) (C : I1024 → BitVec 1)

/-! ## Where each operation reads its operands -/

theorem lidx_v0 (b : Fin 2) (h : Fin 16) (q k : Fin 1024) (d : Fin 64) :
    lidx_main_v0 (ix4 b h q k) d = ix4 b h q d :=
  funext fun a => Fin.ext (by match a with | ⟨0, _⟩ => rfl | ⟨1, _⟩ => rfl | ⟨2, _⟩ => rfl | ⟨3, _⟩ => rfl)

theorem ridx_v0 (b : Fin 2) (h : Fin 16) (q k : Fin 1024) (d : Fin 64) :
    ridx_main_v0 (ix4 b h q k) d = ix4 b h k d :=
  funext fun a => Fin.ext (by match a with | ⟨0, _⟩ => rfl | ⟨1, _⟩ => rfl | ⟨2, _⟩ => rfl | ⟨3, _⟩ => rfl)

theorem idx_v10_v11 (b : Fin 2) (h : Fin 16) (q k : Fin 1024) :
    idx_main_v10 (idx_main_v11 (ix4 b h q k)) = ix3 b h q :=
  funext fun a => Fin.ext (by match a with | ⟨0, _⟩ => rfl | ⟨1, _⟩ => rfl | ⟨2, _⟩ => rfl)

theorem idx_v15_v16 (b : Fin 2) (h : Fin 16) (q k : Fin 1024) :
    idx_main_v15 (idx_main_v16 (ix4 b h q k)) = ix3 b h q :=
  funext fun a => Fin.ext (by match a with | ⟨0, _⟩ => rfl | ⟨1, _⟩ => rfl | ⟨2, _⟩ => rfl)

theorem idx_v14 (b : Fin 2) (h : Fin 16) (q k : Fin 1024) :
    idx_main_v14 (ix3 b h q) k = ix4 b h q k :=
  funext fun a => Fin.ext (by match a with | ⟨0, _⟩ => rfl | ⟨1, _⟩ => rfl | ⟨2, _⟩ => rfl | ⟨3, _⟩ => rfl)

theorem lidx_v18 (b : Fin 2) (h : Fin 16) (q : Fin 1024) (d : Fin 64) (k : Fin 1024) :
    lidx_main_v18 (ix4 b h q d) k = ix4 b h q k :=
  funext fun a => Fin.ext (by match a with | ⟨0, _⟩ => rfl | ⟨1, _⟩ => rfl | ⟨2, _⟩ => rfl | ⟨3, _⟩ => rfl)

theorem ridx_v18 (b : Fin 2) (h : Fin 16) (q : Fin 1024) (d : Fin 64) (k : Fin 1024) :
    ridx_main_v18 (ix4 b h q d) k = ix4 b h k d :=
  funext fun a => Fin.ext (by match a with | ⟨0, _⟩ => rfl | ⟨1, _⟩ => rfl | ⟨2, _⟩ => rfl | ⟨3, _⟩ => rfl)

/-! ## The stages -/

/-- The masked scores. -/
theorem scores_apply (b : Fin 2) (h : Fin 16) (q k : Fin 1024) :
    val_main_v6 (F := Ideal) Q K C A B (ix4 b h q k) = score Q K A B C b h q k := by
  rw [val_main_v6_apply, val_main_call0_v1_apply, val_main_call0_v0_apply, val_main_cst_0_apply, val_main_v5_apply,
    val_main_v4_apply, val_main_v3_apply, val_main_v0_apply, val_main_v2_apply, val_main_v1_apply, val_main_cst_apply]
  simp only [lidx_v0, ridx_v0, Ideal.addf_def, Ideal.hostDivf_def, Ideal.hostUnary_sqrt_def, Ideal.ofBits_def]
  exact score_ref Q K A B C b h q k

/-- The last axis is the one reduced. -/
theorem reduces_last : S2x16x1024x1024.Reduces [3] S2x16x1024 := by decide

/-- The row maximum, with the program's second max against -infinity. -/
theorem rowmax_apply (b : Fin 2) (h : Fin 16) (q : Fin 1024) :
    val_main_v9 (F := Ideal) Q K C A B (ix3 b h q) = rowMax (score Q K A B C b h q) := by
  rw [val_main_v9_apply, val_main_v8_apply, val_main_cst_2_apply]
  unfold val_main_v7
  rw [Host.reduce_eq_fold_single FloatOps.maximumf _ _ reducesTo_S2x16x1024x1024_S2x16x1024_d3 reduces_last h_S_ (ix3 b h q)]
  have hrow : (val_main_v6 (F := Ideal) Q K C A B ∘ reduces_last.lift (ix3 b h q)) = score Q K A B C b h q := by
    refine funext fun (k : Fin 1024) => ?_
    have e : reduces_last.lift (ix3 b h q) k = ix4 b h q k :=
      funext fun a => Fin.ext (by match a with | ⟨0, _⟩ => rfl | ⟨1, _⟩ => rfl | ⟨2, _⟩ => rfl | ⟨3, _⟩ => rfl)
    show val_main_v6 (F := Ideal) Q K C A B (reduces_last.lift (ix3 b h q) k) = _
    rw [e, scores_apply]
  rw [hrow]
  exact max_fold_self _ _ _

/-- The exponentials. -/
theorem exps_apply (b : Fin 2) (h : Fin 16) (q k : Fin 1024) :
    val_main_v13 (F := Ideal) Q K C A B (ix4 b h q k) = expRow (score Q K A B C b h q) k := by
  rw [val_main_v13_apply, val_main_v12_apply, val_main_v11_apply, val_main_v10_apply, idx_v10_v11, rowmax_apply,
    scores_apply]
  rfl

/-- The denominators. -/
theorem denom_apply (b : Fin 2) (h : Fin 16) (q : Fin 1024) :
    val_main_v14 (F := Ideal) Q K C A B (ix3 b h q) = ∑ k : Fin 1024, expRow (score Q K A B C b h q) k := by
  rw [val_main_v14_apply, val_main_cst_3_apply]
  simp only [idx_v14, exps_apply, Ideal.ofBits_def, Ideal.ofBits_zero_f32, zero_add]

/-- The weights. -/
theorem weights_apply (b : Fin 2) (h : Fin 16) (q k : Fin 1024) :
    val_main_v17 (F := Ideal) Q K C A B (ix4 b h q k) = weight (score Q K A B C b h q) k := by
  rw [val_main_v17_apply, val_main_v16_apply, val_main_v15_apply, idx_v15_v16, denom_apply, exps_apply]
  rfl

/-! ## The two results -/

/-- The reference's second result is the specification's weights. -/
theorem attn_eq : val_main_v17 (F := Ideal) Q K C A B = attn Q K A B C := by
  funext i
  obtain ⟨b, h, q, k, rfl⟩ : ∃ (b : Fin 2) (h : Fin 16) (q k : Fin 1024), i = ix4 b h q k := ⟨i 0, i 1, i 2, i 3, eq_ix4 i⟩
  exact weights_apply Q K A B C b h q k

/-- The reference's first result is the specification's context. -/
theorem ctx_eq : val_main_v18 (F := Ideal) Q K V C A B = ctx Q K V A B C := by
  funext i
  obtain ⟨b, h, q, d, rfl⟩ : ∃ (b : Fin 2) (h : Fin 16) (q : Fin 1024) (d : Fin 64), i = ix4 b h q d := ⟨i 0, i 1, i 2, i 3, eq_ix4 i⟩
  rw [val_main_v18_apply]
  simp only [lidx_v18, ridx_v18, weights_apply]
  rfl

end Cert.Attn.Ref

end
-- ==== Proof.lean ====
/-
  The claim of this certificate: masked softmax attention with two additive biases, computed by a kernel over a
  2 x 16 x 2 grid of (batch, head, half of the query rows), against the plain reference.

  Both programs compute, for every batch b, head h and query row q, the weights
      w(k) = exp(s(k) - max s) / sum over k' of exp(s(k') - max s),
  of the scores s(k) = (Q(b,h,q,.) . K(b,h,k,.)) / 8 + bias1(b,h,q,k) + bias2(b,h,q,k), replaced by -1e9 where the
  condition bit is set, and the context sum over k of w(k) * V(b,h,k,.). On the extended reals the two texts differ
  only in spelling: the reference divides by the square root of 64 where the kernel multiplies by 0.125; it adds the
  biases one after the other where the kernel adds their sum; it takes max with -infinity once more after the row
  maximum; and the kernel tests a condition word widened to 32 bits against zero where the reference selects on the
  bit. None of these needs the inputs to be finite, so the precondition is never opened.

  Proof/AttnSpec.lean states the two arrays as functions of the arguments and settles those spellings;
  Proof/RefAttn.lean shows the reference's two results are them; Proof/KernelBlock.lean reads one grid point of the
  kernel at an index, Proof/KernelArray.lean assembles the points into the two result arrays. The kernel was printed
  without any rewrite, so there is nothing to preserve; the three runs' termination and unchanged arguments are the
  generated frames and the reference's generated run.
-/
import proofs.«112944_j9732395892963_2_alg».proof.Defs
import proofs.«112944_j9732395892963_2_alg».proof.Proof.Gen.Kernel
import proofs.«112944_j9732395892963_2_alg».proof.Proof.Gen.Kernel.Skeleton
import proofs.«112944_j9732395892963_2_alg».proof.Proof.Gen.Kernel.Launch
import proofs.«112944_j9732395892963_2_alg».proof.Proof.Gen.Kernel.Points
import proofs.«112944_j9732395892963_2_alg».proof.Proof.Gen.Kernel.Frame
import proofs.«112944_j9732395892963_2_alg».proof.Proof.Gen.KernelIdeal
import proofs.«112944_j9732395892963_2_alg».proof.Proof.Gen.KernelIdeal.Skeleton
import proofs.«112944_j9732395892963_2_alg».proof.Proof.Gen.KernelIdeal.Launch
import proofs.«112944_j9732395892963_2_alg».proof.Proof.Gen.KernelIdeal.Points
import proofs.«112944_j9732395892963_2_alg».proof.Proof.Gen.KernelIdeal.Frame
import proofs.«112944_j9732395892963_2_alg».proof.Proof.Gen.ReferenceIdeal
import proofs.«112944_j9732395892963_2_alg».proof.Proof.Gen.Pre_finite_inputs
import proofs.«112944_j9732395892963_2_alg».proof.Proof.Gen.KernelIdeal.Value
import proofs.«112944_j9732395892963_2_alg».proof.Proof.Gen.ReferenceIdeal.Run
import proofs.«112944_j9732395892963_2_alg».proof.Proof.Gen.ReferenceIdeal.Read
import proofs.«112944_j9732395892963_2_alg».proof.Proof.KernelArray
import proofs.«112944_j9732395892963_2_alg».proof.Proof.RefAttn
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, the kernel's context and weights are the reference's: both are the specification's. -/
theorem algebraic : Cert.algebraic_KernelIdeal_ReferenceIdeal := by
  intro m ρ m' ρ' _ hagree
  refine ⟨_, _, Cert.Attn.Array.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.Attn.Ref.ctx_eq, (hagree c).1, (hagree c).2.1, (hagree c).2.2.1,
      (hagree c).2.2.2.2.1, (hagree c).2.2.2.2.2.1, (hagree c).2.2.2.2.2.2.1]
  · rw [Cert.ReferenceIdeal.Read.val_main_v17_eq, Cert.Attn.Ref.attn_eq, (hagree c).1, (hagree c).2.1,
      (hagree c).2.2.2.2.1, (hagree c).2.2.2.2.2.1, (hagree c).2.2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
